-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S512x256 : Shape := ⟨2, ![512, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x256 .f32) (main_arg1 : IVec S2x800000 32) (main_arg2 : FVec F S512x256 .f32) (main_arg3 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x256 : Shape := ⟨2, ![50000, 256]⟩
abbrev S2x800000 : Shape := ⟨2, ![2, 800000]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S256x256 : Shape := ⟨2, ![256, 256]⟩
abbrev S1x256 : Shape := ⟨2, ![1, 256]⟩
abbrev S5000x256 : Shape := ⟨2, ![5000, 256]⟩
abbrev S5000x1 : Shape := ⟨2, ![5000, 1]⟩
abbrev S5000 : Shape := ⟨1, ![5000]⟩

abbrev nBuf : Space → Nat
  | .hbm => 32
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S_, .f32⟩
  | .hbm, ⟨18, _⟩ => ⟨S50000x256, .f32⟩
  | .hbm, ⟨19, _⟩ => ⟨S800000x1, .i32⟩
  | .hbm, ⟨20, _⟩ => ⟨S50000x256, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S50000x1, .f32⟩
  | .hbm, ⟨28, _⟩ => ⟨S256x256, .f32⟩
  | .hbm, ⟨29, _⟩ => ⟨S256x256, .f32⟩
  | .hbm, ⟨30, _⟩ => ⟨S1x256, .f32⟩
  | .hbm, ⟨31, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S5000x1, .f32⟩
  | .local _ .vmem, ⟨5, _⟩ => ⟨S5000x1, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S5000x256, .f32⟩
  | .local _ .vmem, ⟨10, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  shapeCasts_S50000_S50000x1 : S50000.ShapeCasts S50000x1
  slices_S512x256_S256x256_0_0 : S512x256.Slices ![0, 0] S256x256
  slices_S512x256_S256x256_256_0 : S512x256.Slices ![256, 0] S256x256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  reduces_S5000x256_S5000 : S5000x256.Reduces [1] S5000
  shapeCasts_S5000_S5000x1 : S5000.ShapeCasts S5000x1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S50000x512 : Shape := ⟨2, ![50000, 512]⟩
abbrev S1x256 : Shape := ⟨2, ![1, 256]⟩

abbrev nBuf : Space → Nat
  | .hbm => 51
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x256, .f32⟩
  | .hbm, ⟨17, _⟩ => ⟨S_, .f32⟩
  | .hbm, ⟨18, _⟩ => ⟨S50000x256, .f32⟩
  | .hbm, ⟨19, _⟩ => ⟨S800000x1, .i32⟩
  | .hbm, ⟨20, _⟩ => ⟨S50000x256, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x256, .f32⟩
  | .hbm, ⟨32, _⟩ => ⟨S50000x256, .f32⟩
  | .hbm, ⟨33, _⟩ => ⟨S50000x512, .f32⟩
  | .hbm, ⟨34, _⟩ => ⟨S50000x256, .f32⟩
  | .hbm, ⟨35, _⟩ => ⟨S1x256, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000, .f32⟩
  | .hbm, ⟨44, _⟩ => ⟨S50000x1, .f32⟩
  | .hbm, ⟨45, _⟩ => ⟨S50000x1, .f32⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x256, .f32⟩
  | .hbm, ⟨50, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x512_S512x256_S50000x256_1_0_0_1_n_n_wf : DotDims.WF S50000x512 S512x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.Spec.lean ====
/-
  What one GraphSAGE layer computes, as a function of arrays of extended reals.

  A row of the layer depends on one node only: the node's own features `X r ·`, the sum of its neighbours'
  features `NS r ·` and its in-degree `D r`. With `mean r k = NS r k / max (D r) 1` the activation is
    act r j = max ( Σ_k X r k · W1 k j + Σ_k mean r k · W2 k j + B j ) 0
  and the layer's output is the activation's row divided by its Euclidean norm, clamped below by `eps`:
    out r j = act r j / max ( sqrt ( Σ_j' act r j' · act r j' ) ) eps .
  `rowOut` is this, over any number of rows: a block of 5000 rows and the whole array of 50000 rows are both
  instances, and `rowOut_congr` says a row of the result is decided by that row of the operands.

  The projection may be written over the concatenated feature vector of length 512 — the node's features, then the
  mean — against the whole weight matrix `W`, whose upper 256 rows are `W1` and lower 256 rows `W2`. `sum_halves`
  splits a sum over 512 indices into the sums over its two halves; addition of extended reals is commutative and
  associative at the infinities too, so nothing about finiteness is used anywhere.

  The three float constants stay as their bit patterns: the same words occur on both sides of every equation.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Sage

/-- A matrix of extended reals with `n0` rows and `n1` columns. -/
abbrev Mat (n0 n1 : Nat) : Type := (⟨2, ![n0, n1]⟩ : Shape).Idx → EReal
/-- A vector of extended reals of length `n`. -/
abbrev Arr (n : Nat) : Type := (⟨1, ![n]⟩ : Shape).Idx → EReal

/-- `1.0`: the lower clamp of a degree. -/
abbrev one : EReal := Ideal.ofBits .f32 0x3F800000#32
/-- `0.0`: the rectifier's threshold. -/
abbrev zero : EReal := Ideal.ofBits .f32 0x00000000#32
/-- The lower clamp of a norm. -/
abbrev eps : EReal := Ideal.ofBits .f32 0x2B8CBCCC#32

/-- Row `k` of the upper half of a matrix of 512 rows. -/
abbrev lo (k : Fin 256) : Fin 512 := ⟨k.val, by omega⟩
/-- Row `k` of the lower half of a matrix of 512 rows. -/
abbrev hi (k : Fin 256) : Fin 512 := ⟨256 + k.val, by omega⟩

/-- The rectified projection of node `r` at output feature `j`. -/
def rowAct {R : Nat} (X NS : Mat R 256) (D : Fin R → EReal) (W1 W2 : Mat 256 256) (B : Fin 256 → EReal)
    (r : Fin R) (j : Fin 256) : EReal :=
  max ((∑ k : Fin 256, X (ix2 r k) * W1 (ix2 k j)
      + ∑ k : Fin 256, Ideal.div (NS (ix2 r k)) (max (D r) one) * W2 (ix2 k j)) + B j) zero

/-- The layer's output for node `r` at output feature `j`: the activation over its row's clamped Euclidean norm. -/
def rowOut {R : Nat} (X NS : Mat R 256) (D : Fin R → EReal) (W1 W2 : Mat 256 256) (B : Fin 256 → EReal)
    (r : Fin R) (j : Fin 256) : EReal :=
  Ideal.div (rowAct X NS D W1 W2 B r j)
    (max (Ideal.sqrt (∑ j' : Fin 256, rowAct X NS D W1 W2 B r j' * rowAct X NS D W1 W2 B r j')) eps)

/-- A row of the activation is decided by that row of the features, of the neighbour sums and of the degrees, and
    by the weights and the bias entry by entry: two sets of operands that agree there give the same value, whatever
    their numbers of rows. -/
theorem rowAct_congr {R R' : Nat} {X NS : Mat R 256} {D : Fin R → EReal} {W1 W2 : Mat 256 256} {B : Fin 256 → EReal}
    {X' NS' : Mat R' 256} {D' : Fin R' → EReal} {W1' W2' : Mat 256 256} {B' : Fin 256 → EReal} {r : Fin R} {r' : Fin R'}
    (hX : ∀ k, X (ix2 r k) = X' (ix2 r' k)) (hNS : ∀ k, NS (ix2 r k) = NS' (ix2 r' k)) (hD : D r = D' r')
    (hW1 : ∀ k j, W1 (ix2 k j) = W1' (ix2 k j)) (hW2 : ∀ k j, W2 (ix2 k j) = W2' (ix2 k j)) (hB : ∀ j, B j = B' j)
    (j : Fin 256) : rowAct X NS D W1 W2 B r j = rowAct X' NS' D' W1' W2' B' r' j := by
  unfold rowAct
  simp only [hX, hNS, hD, hW1, hW2, hB]

/-- The same of the output. -/
theorem rowOut_congr {R R' : Nat} {X NS : Mat R 256} {D : Fin R → EReal} {W1 W2 : Mat 256 256} {B : Fin 256 → EReal}
    {X' NS' : Mat R' 256} {D' : Fin R' → EReal} {W1' W2' : Mat 256 256} {B' : Fin 256 → EReal} {r : Fin R} {r' : Fin R'}
    (hX : ∀ k, X (ix2 r k) = X' (ix2 r' k)) (hNS : ∀ k, NS (ix2 r k) = NS' (ix2 r' k)) (hD : D r = D' r')
    (hW1 : ∀ k j, W1 (ix2 k j) = W1' (ix2 k j)) (hW2 : ∀ k j, W2 (ix2 k j) = W2' (ix2 k j)) (hB : ∀ j, B j = B' j)
    (j : Fin 256) : rowOut X NS D W1 W2 B r j = rowOut X' NS' D' W1' W2' B' r' j := by
  unfold rowOut
  simp only [rowAct_congr hX hNS hD hW1 hW2 hB]

/-- A sum over 512 indices is the sum over the first 256 plus the sum over the last 256. -/
theorem sum_halves (f : Fin 512 → EReal) : ∑ k : Fin 512, f k = ∑ k : Fin 256, f (lo k) + ∑ k : Fin 256, f (hi k) :=
  Fin.sum_univ_add (a := 256) (b := 256) f

/-- THE LAYER over the whole arrays: features `x` and neighbour sums `ns` of 50000 nodes, their degrees `deg`, the
    weight matrix `W` of 512 rows (upper half for a node's own features, lower half for the mean) and the bias `b`. -/
def layer (x ns : Mat 50000 256) (deg : Arr 50000) (W : Mat 512 256) (b : Arr 256) : Mat 50000 256 := fun i =>
  rowOut x ns (fun r => deg (ix1 r)) (fun kj => W (ix2 (lo (kj 0)) (kj 1))) (fun kj => W (ix2 (hi (kj 0)) (kj 1)))
    (fun j => b (ix1 j)) (i 0) (i 1)

end Cert.Sage

end
-- ==== Proof.RefValue.lean ====
/-
  The reference's result is the layer.

  The reference concatenates each node's features with the mean of its neighbours' into a vector of length 512,
  multiplies by the whole weight matrix, adds the bias, rectifies, and divides each row by its clamped Euclidean
  norm. Read one operation at a time at an index: the concatenation at a column below 256 is the node's own feature
  and at column `256 + k` the mean's entry `k`, so the sum over the 512 contracted indices splits into the two sums
  of 256 of `Sage.rowAct` (`Sage.sum_halves`); the host's sum of squares starts from the constant zero, which adds
  nothing. The neighbour sums and the degrees — the two accumulating scatters — are carried as they are.
-/
import proofs.«113358_j7284264534191_2_alg».proof.Proof.Gen.ReferenceIdeal.Read
import proofs.«113358_j7284264534191_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.Sage.Ref

open Cert.ReferenceIdeal Cert.ReferenceIdeal.Gen Cert.ReferenceIdeal.Read

variable (x0 : (⟨S50000x256, .f32⟩ : BufTy).Contents (Elt Ideal)) (x1 : (⟨S2x800000, .i32⟩ : BufTy).Contents (Elt Ideal))
  (x2 : (⟨S512x256, .f32⟩ : BufTy).Contents (Elt Ideal)) (x3 : (⟨S256, .f32⟩ : BufTy).Contents (Elt Ideal))

/-- The concatenated feature vector of node `r` at a column of its first half: the node's own feature. -/
theorem concat_lo (r : Fin 50000) (k : Fin 256) : val_main_v23 (F := Ideal) x0 x1 (ix2 r (lo k)) = x0 (ix2 r k) := by
  unfold val_main_v23
  refine concatenate_pair_apply_left (1 : Fin 2) x0 _ _ (ix2 r (lo k)) rfl (ix2 r k) fun b => ?_
  match b with
  | ⟨0, _⟩ => rfl
  | ⟨1, _⟩ => rfl

/-- … and at a column of its second half: the mean of the neighbours' features. -/
theorem concat_hi (r : Fin 50000) (k : Fin 256) :
    val_main_v23 (F := Ideal) x0 x1 (ix2 r (hi k)) = val_main_v22 (F := Ideal) x0 x1 (ix2 r k) := by
  unfold val_main_v23
  refine concatenate_pair_apply_right (s₁ := S50000x256) (s₂ := S50000x256) (1 : Fin 2) x0 (val_main_v22 (F := Ideal) x0 x1) _
    (ix2 r (hi k)) rfl rfl (ix2 r k) (fun b hb => ?_) ?_
  · match b with
    | ⟨0, _⟩ => rfl
    | ⟨1, _⟩ => exact absurd rfl hb
  · show k.val + 256 = 256 + k.val
    omega

/-- The rectified projection of the reference at `(r, j)`. -/
theorem act_apply (r : Fin 50000) (j : Fin 256) :
    val_main_v28 (F := Ideal) x0 x1 x2 x3 (ix2 r j)
      = rowAct x0 (val_main_v13 (F := Ideal) x0 x1) (fun r => val_main_v17 (F := Ideal) x1 (ix1 r))
          (fun kj => x2 (ix2 (lo (kj 0)) (kj 1))) (fun kj => x2 (ix2 (hi (kj 0)) (kj 1))) (fun j => x3 (ix1 j)) r j := by
  rw [val_main_v28_apply, val_main_v27_apply, val_main_v24_apply, val_main_v26_apply, val_main_v25_apply,
    val_main_call0_v0_apply, val_main_call0_cst_apply, sum_halves]
  have e1 : ∀ kk : Fin 512, lidx_main_v24 (ix2 r j) kk = ix2 r kk := fun kk =>
    funext fun a => Fin.ext (by match a with | ⟨0, _⟩ => rfl | ⟨1, _⟩ => rfl)
  have e2 : ∀ kk : Fin 512, ridx_main_v24 (ix2 r j) kk = ix2 kk j := fun kk =>
    funext fun a => Fin.ext (by match a with | ⟨0, _⟩ => rfl | ⟨1, _⟩ => rfl)
  have e3 : idx_main_v25 (idx_main_v26 (ix2 r j)) = ix1 j :=
    funext fun a => Fin.ext (by match a with | ⟨0, _⟩ => rfl)
  have e4 : ∀ k : Fin 256, idx_main_v20 (idx_main_v21 (ix2 r k)) = ix1 r := fun k =>
    funext fun a => Fin.ext (by match a with | ⟨0, _⟩ => rfl)
  -- a term of the first half: the node's own feature against row `k` of the weights
  have h1 : ∀ k : Fin 256, val_main_v23 (F := Ideal) x0 x1 (lidx_main_v24 (ix2 r j) (lo k)) * x2 (ridx_main_v24 (ix2 r j) (lo k))
      = x0 (ix2 r k) * x2 (ix2 (lo k) j) := fun k => by
    rw [e1, e2, concat_lo]
  -- a term of the second half: the mean's entry against row `256 + k` of the weights
  have h2 : ∀ k : Fin 256, val_main_v23 (F := Ideal) x0 x1 (lidx_main_v24 (ix2 r j) (hi k)) * x2 (ridx_main_v24 (ix2 r j) (hi k))
      = Ideal.div (val_main_v13 (F := Ideal) x0 x1 (ix2 r k)) (max (val_main_v17 (F := Ideal) x1 (ix1 r)) Sage.one) * x2 (ix2 (hi k) j) := fun k => by
    rw [e1, e2, concat_hi, val_main_v22_apply, val_main_v21_apply, val_main_v20_apply, val_main_v19_apply,
      val_main_v18_apply, val_main_cst_3_apply, e4]
    rfl
  rw [e3]
  simp only [h1, h2]
  rfl

/-- THE REFERENCE'S RESULT, as a function of its arguments, is the layer of the features, the scattered neighbour
    sums, the scattered degrees, the weights and the bias. -/
theorem result_eq :
    val_main_v33 (F := Ideal) x0 x1 x2 x3
      = layer x0 (val_main_v13 (F := Ideal) x0 x1) (val_main_v17 (F := Ideal) x1) x2 x3 := by
  funext i
  obtain ⟨r, j, rfl⟩ : ∃ (r : Fin 50000) (j : Fin 256), i = ix2 r j := ⟨i 0, i 1, eq_ix2 i⟩
  rw [val_main_v33_apply, val_main_v32_apply, val_main_v31_apply, val_main_v29_apply, val_main_call1_v2_apply,
    val_main_call1_v1_apply, val_main_v30_apply, val_main_cst_4_apply, val_main_call1_cst_apply]
  have e5 : ∀ k : Fin 256, idx_main_call1_v1 (idx_main_call1_v2 (idx_main_v32 (ix2 r j))) k = ix2 r k := fun k =>
    funext fun a => Fin.ext (by match a with | ⟨0, _⟩ => rfl | ⟨1, _⟩ => rfl)
  -- a term of the sum of squares: the activation of the row at feature `k`, squared
  have h3 : ∀ k : Fin 256,
      val_main_call1_v0 (F := Ideal) x0 x1 x2 x3 (idx_main_call1_v1 (idx_main_call1_v2 (idx_main_v32 (ix2 r j))) k)
        = val_main_v28 (F := Ideal) x0 x1 x2 x3 (ix2 r k) * val_main_v28 (F := Ideal) x0 x1 x2 x3 (ix2 r k) := fun k => by
    rw [e5, val_main_call1_v0_apply]
    rfl
  simp only [h3, act_apply, Ideal.ofBits_def, Ideal.ofBits_zero_f32, zero_add]
  rfl

end Cert.Sage.Ref

end
-- ==== Proof.Payload.lean ====
/-
  The value one grid point stores, read at an entry of its block.

  The body loads a block `v0` of 5000 rows of the node features, the same rows `v1` of the neighbour sums, the
  column `v3` of those rows' degrees, the two halves `v9`, `v11` of the weights and the bias row `v16`, and stores
  one block of 5000 × 256 values. Entry `(p, q)` of what it stores is `Sage.rowOut` of those operands at row `p` and
  column `q`: each matrix product into a zero accumulator is the plain sum over the 256 contracted indices, the
  degree column and the norm column are broadcast along the features, the bias row along the nodes, and the lane
  reduction of the squares is the sum over the 256 features of the row.
-/
import proofs.«113358_j7284264534191_2_alg».proof.Proof.Gen.KernelIdeal.Skeleton
import proofs.«113358_j7284264534191_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.Sage.Block

open Cert.KernelIdeal Cert.KernelIdeal.Gen

/-! ## Three layout readings the body needs -/

/-- A column `[a, 1]` broadcast along a new second axis reads, at `(p, c)`, the column at row `p`. -/
theorem broadcastTo_col {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_col {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the features of a block, read at row `p`: the sum over the 256 columns of that row. -/
theorem lane_sum (src : FVec Ideal S5000x256 .f32) (h : S5000x256.Reduces [1] S5000) (hφ : FKind.Formats .f32)
    (hacc : (0x00000000#32 : BitVec 32) = FKind.add.neutral .f32 hφ) (p : Fin 5000) :
    multiReduction .add [1] S5000 src 0x00000000#32 h hφ hacc (ix1 p) = ∑ k : Fin 256, src (ix2 p k) := by
  refine (Ideal.multiReduction_add_single src 0x00000000#32 h hφ hacc (ix1 p)).trans ?_
  show ∑ k : Fin 256, src (h.lift (ix1 p) k) = _
  refine Finset.sum_congr rfl fun k _ => congrArg src ?_
  funext a
  apply Fin.ext
  match a with
  | ⟨0, _⟩ => rfl
  | ⟨1, _⟩ => rfl

/-! ## A product of a block with a 256 × 256 matrix, into zero -/

theorem lhs_row (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

theorem rhs_col (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- Entry `(p, q)` of the product is the sum over `k` of row `p` of the left operand times column `q` of the right. -/
theorem matmul_entry (l : FVec Ideal S5000x256 .f32) (r : FVec Ideal S256x256 .f32) (p : Fin 5000) (q : Fin 256) :
    matmul dot_S5000x256_S256x256_S5000x256_1_0_0_1_n_n none l r (constant (F := Ideal) S5000x256 .f32 0x00000000#32) (ix2 p q)
      = ∑ k : Fin 256, l (ix2 p k) * r (ix2 k q) := by
  simp only [matmul]
  rw [Ideal.matmul_constant_zero_apply,
    ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k :=
    funext fun a => Fin.ext (by
      match a with
      | ⟨0, _⟩ => exact lhs_row _ _
      | ⟨1, _⟩ => exact (dot_S5000x256_S256x256_S5000x256_1_0_0_1_n_n.lhsIdx_val_of_single rfl _ _).trans hk)
  have er : dot_S5000x256_S256x256_S5000x256_1_0_0_1_n_n.rhsIdx (ix2 p q)
      ((contrEquiv1 dot_S5000x256_S256x256_S5000x256_1_0_0_1_n_n 256 rfl rfl).symm k) = ix2 k q :=
    funext fun a => Fin.ext (by
      match a with
      | ⟨0, _⟩ => exact (dot_S5000x256_S256x256_S5000x256_1_0_0_1_n_n.rhsIdx_val_of_single rfl _ _).trans hk
      | ⟨1, _⟩ => exact rhs_col _ _)
  rw [el, er]

/-! ## The body in two steps: the rectified projection, then the normalisation -/

/-- The rectified projection of the block, as the body computes it. -/
def act (v0 v1 : FVec Ideal S5000x256 .f32) (v3 : FVec Ideal S5000x1 .f32) (v9 v11 : FVec Ideal S256x256 .f32)
    (v16 : FVec Ideal S1x256 .f32) : FVec Ideal S5000x256 .f32 :=
  maximumf
    (addf
      (addf (matmul dot_S5000x256_S256x256_S5000x256_1_0_0_1_n_n none v0 v9 (constant S5000x256 .f32 0x00000000#32))
        (matmul dot_S5000x256_S256x256_S5000x256_1_0_0_1_n_n none
          (divf v1 (broadcastTo S5000x256 (maximumf v3 (broadcast S5000x1 (Scalar.ofBits .f32 0x3F800000#32))) broadcasts_S5000x1_S5000x256))
          v11 (constant S5000x256 .f32 0x00000000#32)))
      (broadcastTo S5000x256 v16 broadcasts_S1x256_S5000x256))
    (broadcast S5000x256 (Scalar.ofBits .f32 0x00000000#32))

/-- A block divided, row by row, by the clamped Euclidean norm of the row, as the body computes it. -/
def normalize (a : FVec Ideal S5000x256 .f32) : FVec Ideal S5000x256 .f32 :=
  divf a
    (broadcastTo S5000x256
      (maximumf
        (sqrt (shapeCast S5000x1 (multiReduction .add [1] S5000 (mulf a a) 0x00000000#32 reduces_S5000x256_S5000 (.inl rfl) rfl)
          shapeCasts_S5000_S5000x1))
        (broadcast S5000x1 (Scalar.ofBits .f32 0x2B8CBCCC#32)))
      broadcasts_S5000x1_S5000x256)

/-- The stored value is the normalised rectified projection (the casts of a block to its own shape are identities). -/
theorem pay_eq (v0 v1 : FVec Ideal S5000x256 .f32) (v3 : FVec Ideal S5000x1 .f32) (v9 v11 : FVec Ideal S256x256 .f32)
    (v16 : FVec Ideal S1x256 .f32) : k0_pay1 (F := Ideal) v0 v1 v3 v9 v11 v16 = normalize (act v0 v1 v3 v9 v11 v16) := by
  unfold k0_pay1 normalize act
  simp only [shapeCast_self]

/-- The rectified projection at `(p, q)`. -/
theorem act_apply (v0 v1 : FVec Ideal S5000x256 .f32) (v3 : FVec Ideal S5000x1 .f32) (v9 v11 : FVec Ideal S256x256 .f32)
    (v16 : FVec Ideal S1x256 .f32) (p : Fin 5000) (q : Fin 256) :
    act v0 v1 v3 v9 v11 v16 (ix2 p q)
      = rowAct v0 v1 (fun p => v3 (ix2 p (0 : Fin 1))) v9 v11 (fun q => v16 (ix2 (0 : Fin 1) q)) p q := by
  unfold act rowAct
  show max ((matmul dot_S5000x256_S256x256_S5000x256_1_0_0_1_n_n none v0 v9 (constant (F := Ideal) S5000x256 .f32 0x00000000#32) (ix2 p q)
      + matmul dot_S5000x256_S256x256_S5000x256_1_0_0_1_n_n none
          (divf v1 (broadcastTo S5000x256 (maximumf v3 (broadcast S5000x1 (Scalar.ofBits .f32 0x3F800000#32))) broadcasts_S5000x1_S5000x256))
          v11 (constant (F := Ideal) S5000x256 .f32 0x00000000#32) (ix2 p q))
      + broadcastTo S5000x256 v16 broadcasts_S1x256_S5000x256 (ix2 p q)) Sage.zero = _
  rw [matmul_entry, matmul_entry, broadcastTo_1b_ab_apply]
  refine congrArg (fun z => max ((_ + z) + _) Sage.zero) ?_
  refine Finset.sum_congr rfl fun k _ => congrArg (· * _) ?_
  show Ideal.div (v1 (ix2 p k)) (broadcastTo S5000x256 (maximumf v3 (broadcast S5000x1 (Scalar.ofBits .f32 0x3F800000#32))) broadcasts_S5000x1_S5000x256 (ix2 p k)) = _
  rw [broadcastTo_col]
  rfl

/-- The normalisation at `(p, q)`. -/
theorem normalize_apply (a : FVec Ideal S5000x256 .f32) (p : Fin 5000) (q : Fin 256) :
    normalize a (ix2 p q)
      = Ideal.div (a (ix2 p q)) (max (Ideal.sqrt (∑ k : Fin 256, a (ix2 p k) * a (ix2 p k))) Sage.eps) := by
  unfold normalize
  show Ideal.div (a (ix2 p q)) (broadcastTo S5000x256 _ broadcasts_S5000x1_S5000x256 (ix2 p q)) = _
  rw [broadcastTo_col]
  refine congrArg (fun z => Ideal.div (a (ix2 p q)) (max (Ideal.sqrt z) Sage.eps)) ?_
  refine (shapeCast_col _ _ p 0).trans ?_
  exact lane_sum (mulf a a) _ _ _ p

/-- ENTRY `(p, q)` OF WHAT A POINT STORES: the layer's row function of the loaded blocks. -/
theorem pay_apply (v0 v1 : FVec Ideal S5000x256 .f32) (v3 : FVec Ideal S5000x1 .f32) (v9 v11 : FVec Ideal S256x256 .f32)
    (v16 : FVec Ideal S1x256 .f32) (p : Fin 5000) (q : Fin 256) :
    k0_pay1 (F := Ideal) v0 v1 v3 v9 v11 v16 (ix2 p q)
      = rowOut v0 v1 (fun p => v3 (ix2 p (0 : Fin 1))) v9 v11 (fun q => v16 (ix2 (0 : Fin 1) q)) p q := by
  rw [pay_eq, normalize_apply]
  unfold rowOut
  simp only [act_apply]

end Cert.Sage.Block

end
-- ==== Proof.HostPrefix.lean ====
/-
  What the region finds in the arrays the host wrote before it.

  Before the one region the program gathers the source nodes' features and scatters them, added, onto the
  destination nodes (the neighbour sums), scatters ones the same way (the degrees) and reshapes them to a column,
  cuts the weight matrix into its upper and lower 256 rows, and reshapes the bias to a row. The neighbour sums and
  the degrees are, operation for operation, the terms the reference computes, and are named as those; the column
  of degrees at row `r` is the degree of node `r`, the upper cut at `(k, j)` is row `k` of the weights and the lower
  cut row `256 + k`, and the bias row at `(0, j)` is the bias at `j`.
-/
import proofs.«113358_j7284264534191_2_alg».proof.Proof.Gen.KernelIdeal.Frame
import proofs.«113358_j7284264534191_2_alg».proof.Proof.Gen.ReferenceIdeal.Read
import proofs.«113358_j7284264534191_2_alg».proof.Proof.Payload
import Idealize.ShloMosaic.Lib.StableHlo.Run
import Idealize.ShloMosaic.Lib.ValueLayout

noncomputable section

open Idealize.ShloMosaic Idealize.ShloMosaic.TcCoe Idealize.ShloMosaic.ValueIdx Idealize.SL.Sem
open Idealize.ShloMosaic.StableHlo

namespace Cert.Sage.Host

open Cert.KernelIdeal Cert.KernelIdeal.Gen

variable (m : (ℓ : Loc nD τ sig) → Buf (Elt Ideal) ℓ)

/-- The neighbour sums the region finds are the reference's scattered sums of the same arguments. -/
theorem V_sums (c : Dev nD) :
    (V m c main_v13 : S50000x256.Idx → EReal)
      = Cert.ReferenceIdeal.Read.val_main_v13 (F := Ideal) (m ((c : Thread nD τ).loc main_arg0)) (m ((c : Thread nD τ).loc main_arg1)) := by
  dsimp only [V, hostOps0]
  after_results_simp <;> rfl

/-- The column of degrees the region finds is the reference's scattered degrees, reshaped. -/
theorem V_degrees (c : Dev nD) :
    (V m c main_v18 : S50000x1.Idx → EReal)
      = shapeCast S50000x1 (Cert.ReferenceIdeal.Read.val_main_v17 (F := Ideal) (m ((c : Thread nD τ).loc main_arg1))) shapeCasts_S50000_S50000x1 := by
  dsimp only [V, hostOps0]
  after_results_simp <;> rfl

/-- The degree column at row `r`. -/
theorem V_degrees_apply (c : Dev nD) (r : Fin 50000) :
    (V m c main_v18 : S50000x1.Idx → EReal) (ix2 r (0 : Fin 1))
      = Cert.ReferenceIdeal.Read.val_main_v17 (F := Ideal) (m ((c : Thread nD τ).loc main_arg1)) (ix1 r) := by
  rw [V_degrees]
  exact Cert.Sage.Block.shapeCast_col _ _ r 0

/-- The upper cut of the weights at `(k, j)`: row `k`. -/
theorem V_upper_apply (c : Dev nD) (k j : Fin 256) :
    (V m c main_v19 : S256x256.Idx → EReal) (ix2 k j)
      = (m ((c : Thread nD τ).loc main_arg2) : S512x256.Idx → EReal) (ix2 (Sage.lo k) j) := by
  have e : (V m c main_v19 : S256x256.Idx → EReal)
      = extractStridedSlice S256x256 ![0, 0] (m ((c : Thread nD τ).loc main_arg2) : S512x256.Idx → EReal) slices_S512x256_S256x256_0_0 := by
    dsimp only [V, hostOps0]
    after_results_simp <;> rfl
  rw [e]
  exact slice2_axis0_apply 0 _ _ k j (Sage.lo k) (by show k.val = 0 + k.val; omega)

/-- The lower cut of the weights at `(k, j)`: row `256 + k`. -/
theorem V_lower_apply (c : Dev nD) (k j : Fin 256) :
    (V m c main_v20 : S256x256.Idx → EReal) (ix2 k j)
      = (m ((c : Thread nD τ).loc main_arg2) : S512x256.Idx → EReal) (ix2 (Sage.hi k) j) := by
  have e : (V m c main_v20 : S256x256.Idx → EReal)
      = extractStridedSlice S256x256 ![256, 0] (m ((c : Thread nD τ).loc main_arg2) : S512x256.Idx → EReal) slices_S512x256_S256x256_256_0 := by
    dsimp only [V, hostOps0]
    after_results_simp <;> rfl
  rw [e]
  exact slice2_axis0_apply 256 _ _ k j (Sage.hi k) rfl

/-- The bias row at `(0, j)`: the bias at `j`. -/
theorem V_bias_apply (c : Dev nD) (j : Fin 256) :
    (V m c main_v21 : S1x256.Idx → EReal) (ix2 (0 : Fin 1) j)
      = (m ((c : Thread nD τ).loc main_arg3) : S256.Idx → EReal) (ix1 j) := by
  have e : (V m c main_v21 : S1x256.Idx → EReal)
      = shapeCast S1x256 (m ((c : Thread nD τ).loc main_arg3) : S256.Idx → EReal) shapeCasts_S256_S1x256 := by
    dsimp only [V, hostOps0]
    after_results_simp <;> rfl
  rw [e]
  exact shapeCast_a_1a_apply _ _ 0 j

end Cert.Sage.Host

end
-- ==== Proof.KernelValue.lean ====
/-
  The kernel's result array is the layer.

  The grid has ten points; point `t` works on rows `5000 t … 5000 t + 4999`. Its blocks of the node features, of the
  neighbour sums and of the degree column are those rows of the arrays, its blocks of the two weight halves and of
  the bias row are the whole arrays, and it writes back those rows of the result. An entry of a block is therefore
  the array's entry at row `5000 t + p`; what the point stores at `(p, q)` is the layer's row function of its blocks
  (`Block.pay_apply`), which depends on row `p` of the blocks only (`Sage.rowOut_congr`), so it is the layer of the
  whole arrays at `(5000 t + p, q)`. Every row lies in exactly the block of point `row / 5000`, so the ten write-backs
  cover the result array, which ends holding the layer.
-/
import proofs.«113358_j7284264534191_2_alg».proof.Proof.Gen.KernelIdeal.Value
import proofs.«113358_j7284264534191_2_alg».proof.Proof.Payload
import proofs.«113358_j7284264534191_2_alg».proof.Proof.HostPrefix
import Idealize.ShloMosaic.Lib.Pipeline.Value
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.Sage.Kernel

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- THE RESULT: the layer of the argument arrays, with the neighbour sums and the degrees the two scatters give. -/
abbrev result (c : Dev nD) : S50000x256.Idx → EReal :=
  Sage.layer (m ((c : Thread nD τ).loc main_arg0))
    (Cert.ReferenceIdeal.Read.val_main_v13 (F := Ideal) (m ((c : Thread nD τ).loc main_arg0)) (m ((c : Thread nD τ).loc main_arg1)))
    (Cert.ReferenceIdeal.Read.val_main_v17 (F := Ideal) (m ((c : Thread nD τ).loc main_arg1)))
    (m ((c : Thread nD τ).loc main_arg2)) (m ((c : Thread nD τ).loc main_arg3))

/-- The block indices, decided over the ten points: the row blocks move with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A point is one of ten. -/
theorem point_lt (t : Fin cfg0.N) : t.val < 10 := Nat.lt_of_lt_of_eq t.isLt N_0

/-! ## The blocks of a point, entry by entry

Each window's block at a point is its array read through a rectangle. Where the rectangle sits is a fact about indices
alone (`emb_…`); reading ANY array through it is then that array at the shifted index (`read_…`, stated for an arbitrary
array so that the host-written arrays are never opened); the block of the array the region finds follows. -/

/-- Entry `(p, k)` of window 0's block at point `t` sits at row `5000 t + p`, column `k` of the features. -/
theorem emb_rows0 (t : Fin cfg0.N) (p : Fin 5000) (k : Fin 256) (R : Fin 50000) (hR : R.val = 5000 * t.val + p.val) :
    (((cfg0.win 0).blk t).view.emb (ix2 p k) : S50000x256.Idx) = ix2 R k := by
  have ht := idx_facts t
  funext a
  apply Fin.ext
  match a with
  | ⟨0, _⟩ => show win0_0.index t (0 : Fin 2) * 5000 + 1 * p.val = R.val; rw [ht.1, hR]; omega
  | ⟨1, _⟩ => show win0_0.index t (1 : Fin 2) * 256 + 1 * k.val = k.val; rw [ht.2.1]; omega

/-- … of window 1's block, of the neighbour sums. -/
theorem emb_rows1 (t : Fin cfg0.N) (p : Fin 5000) (k : Fin 256) (R : Fin 50000) (hR : R.val = 5000 * t.val + p.val) :
    (((cfg0.win 1).blk t).view.emb (ix2 p k) : S50000x256.Idx) = ix2 R k := by
  have ht := idx_facts t
  funext a
  apply Fin.ext
  match a with
  | ⟨0, _⟩ => show win0_1.index t (0 : Fin 2) * 5000 + 1 * p.val = R.val; rw [ht.2.2.1, hR]; omega
  | ⟨1, _⟩ => show win0_1.index t (1 : Fin 2) * 256 + 1 * k.val = k.val; rw [ht.2.2.2.1]; omega

/-- Entry `(p, 0)` of window 2's block sits at row `5000 t + p` of the degree column. -/
theorem emb_rows2 (t : Fin cfg0.N) (p : Fin 5000) (R : Fin 50000) (hR : R.val = 5000 * t.val + p.val) :
    (((cfg0.win 2).blk t).view.emb (ix2 p (0 : Fin 1)) : S50000x1.Idx) = ix2 R (0 : Fin 1) := by
  have ht := idx_facts t
  funext a
  apply Fin.ext
  match a with
  | ⟨0, _⟩ => show win0_2.index t (0 : Fin 2) * 5000 + 1 * p.val = R.val; rw [ht.2.2.2.2.1, hR]; omega
  | ⟨1, _⟩ => show win0_2.index t (1 : Fin 2) * 1 + 1 * 0 = 0; rw [ht.2.2.2.2.2.1]

/-- Window 3's block is the whole upper cut of the weights at every point. -/
theorem emb_whole3 (t : Fin cfg0.N) (k j : Fin 256) :
    (((cfg0.win 3).blk t).view.emb (ix2 k j) : S256x256.Idx) = ix2 k j := by
  have ht := idx_facts t
  funext a
  apply Fin.ext
  match a with
  | ⟨0, _⟩ => show win0_3.index t (0 : Fin 2) * 256 + 1 * k.val = k.val; rw [ht.2.2.2.2.2.2.1]; omega
  | ⟨1, _⟩ => show win0_3.index t (1 : Fin 2) * 256 + 1 * j.val = j.val; rw [ht.2.2.2.2.2.2.2.1]; omega

/-- Window 4's block is the whole lower cut of the weights at every point. -/
theorem emb_whole4 (t : Fin cfg0.N) (k j : Fin 256) :
    (((cfg0.win 4).blk t).view.emb (ix2 k j) : S256x256.Idx) = ix2 k j := by
  have ht := idx_facts t
  funext a
  apply Fin.ext
  match a with
  | ⟨0, _⟩ => show win0_4.index t (0 : Fin 2) * 256 + 1 * k.val = k.val; rw [ht.2.2.2.2.2.2.2.2.1]; omega
  | ⟨1, _⟩ => show win0_4.index t (1 : Fin 2) * 256 + 1 * j.val = j.val; rw [ht.2.2.2.2.2.2.2.2.2.1]; omega

/-- Window 5's block is the whole bias row at every point. -/
theorem emb_whole5 (t : Fin cfg0.N) (j : Fin 256) :
    (((cfg0.win 5).blk t).view.emb (ix2 (0 : Fin 1) j) : S1x256.Idx) = ix2 (0 : Fin 1) j := by
  have ht := idx_facts t
  funext a
  apply Fin.ext
  match a with
  | ⟨0, _⟩ => show win0_5.index t (0 : Fin 2) * 1 + 1 * 0 = 0; rw [ht.2.2.2.2.2.2.2.2.2.2.1]
  | ⟨1, _⟩ => show win0_5.index t (1 : Fin 2) * 256 + 1 * j.val = j.val; rw [ht.2.2.2.2.2.2.2.2.2.2.2.1]; omega

/-- Any array of the features' shape, read through window 0's block at point `t`: its rows `5000 t + p`. -/
theorem read_rows0 (A : S50000x256.Idx → EReal) (t : Fin cfg0.N) (p : Fin 5000) (k : Fin 256) (R : Fin 50000)
    (hR : R.val = 5000 * t.val + p.val) :
    (((cfg0.win 0).blk t).view.read (Elt Ideal) A : Vec Ideal S5000x256 .f32) (ix2 p k) = A (ix2 R k) := by
  rw [View.read_apply]
  show A (((cfg0.win 0).blk t).view.emb (ix2 p k)) = A (ix2 R k)
  rw [emb_rows0 t p k R hR]

theorem read_rows1 (A : S50000x256.Idx → EReal) (t : Fin cfg0.N) (p : Fin 5000) (k : Fin 256) (R : Fin 50000)
    (hR : R.val = 5000 * t.val + p.val) :
    (((cfg0.win 1).blk t).view.read (Elt Ideal) A : Vec Ideal S5000x256 .f32) (ix2 p k) = A (ix2 R k) := by
  rw [View.read_apply]
  show A (((cfg0.win 1).blk t).view.emb (ix2 p k)) = A (ix2 R k)
  rw [emb_rows1 t p k R hR]

theorem read_rows2 (A : S50000x1.Idx → EReal) (t : Fin cfg0.N) (p : Fin 5000) (R : Fin 50000)
    (hR : R.val = 5000 * t.val + p.val) :
    (((cfg0.win 2).blk t).view.read (Elt Ideal) A : Vec Ideal S5000x1 .f32) (ix2 p (0 : Fin 1)) = A (ix2 R (0 : Fin 1)) := by
  rw [View.read_apply]
  show A (((cfg0.win 2).blk t).view.emb (ix2 p (0 : Fin 1))) = A (ix2 R (0 : Fin 1))
  rw [emb_rows2 t p R hR]

theorem read_whole3 (A : S256x256.Idx → EReal) (t : Fin cfg0.N) (k j : Fin 256) :
    (((cfg0.win 3).blk t).view.read (Elt Ideal) A : Vec Ideal S256x256 .f32) (ix2 k j) = A (ix2 k j) := by
  rw [View.read_apply]
  show A (((cfg0.win 3).blk t).view.emb (ix2 k j)) = A (ix2 k j)
  rw [emb_whole3 t k j]

theorem read_whole4 (A : S256x256.Idx → EReal) (t : Fin cfg0.N) (k j : Fin 256) :
    (((cfg0.win 4).blk t).view.read (Elt Ideal) A : Vec Ideal S256x256 .f32) (ix2 k j) = A (ix2 k j) := by
  rw [View.read_apply]
  show A (((cfg0.win 4).blk t).view.emb (ix2 k j)) = A (ix2 k j)
  rw [emb_whole4 t k j]

theorem read_whole5 (A : S1x256.Idx → EReal) (t : Fin cfg0.N) (j : Fin 256) :
    (((cfg0.win 5).blk t).view.read (Elt Ideal) A : Vec Ideal S1x256 .f32) (ix2 (0 : Fin 1) j) = A (ix2 (0 : Fin 1) j) := by
  rw [View.read_apply]
  show A (((cfg0.win 5).blk t).view.emb (ix2 (0 : Fin 1) j)) = A (ix2 (0 : Fin 1) j)
  rw [emb_whole5 t j]

/-- The block of node features at point `t`: rows `5000 t + p` of the features. -/
theorem feat_apply (c : Dev nD) (t : Fin cfg0.N) (p : Fin 5000) (k : Fin 256) (R : Fin 50000) (hR : R.val = 5000 * t.val + p.val) :
    (iblk m c 0 t : Vec Ideal S5000x256 .f32) (ix2 p k) = (m ((c : Thread nD τ).loc main_arg0) : S50000x256.Idx → EReal) (ix2 R k) := by
  unfold iblk
  refine (read_rows0 (V m c (Pipeline.arrRef spec0 0)) t p k R hR).trans ?_
  exact congrFun (V_main_arg0 m c) (ix2 R k)

/-- The block of neighbour sums at point `t`: rows `5000 t + p` of the scattered sums. -/
theorem sums_apply (c : Dev nD) (t : Fin cfg0.N) (p : Fin 5000) (k : Fin 256) (R : Fin 50000) (hR : R.val = 5000 * t.val + p.val) :
    (iblk m c 1 t : Vec Ideal S5000x256 .f32) (ix2 p k)
      = Cert.ReferenceIdeal.Read.val_main_v13 (F := Ideal) (m ((c : Thread nD τ).loc main_arg0)) (m ((c : Thread nD τ).loc main_arg1)) (ix2 R k) := by
  unfold iblk
  refine (read_rows1 (V m c (Pipeline.arrRef spec0 1)) t p k R hR).trans ?_
  exact congrFun (Host.V_sums m c) (ix2 R k)

/-- The block of the degree column at point `t`: the degrees of nodes `5000 t + p`. -/
theorem deg_apply (c : Dev nD) (t : Fin cfg0.N) (p : Fin 5000) (R : Fin 50000) (hR : R.val = 5000 * t.val + p.val) :
    (iblk m c 2 t : Vec Ideal S5000x1 .f32) (ix2 p (0 : Fin 1))
      = Cert.ReferenceIdeal.Read.val_main_v17 (F := Ideal) (m ((c : Thread nD τ).loc main_arg1)) (ix1 R) := by
  unfold iblk
  refine (read_rows2 (V m c (Pipeline.arrRef spec0 2)) t p R hR).trans ?_
  exact Host.V_degrees_apply m c R

/-- The block of the upper weights at any point: the upper 256 rows of the weights. -/
theorem upper_apply (c : Dev nD) (t : Fin cfg0.N) (k j : Fin 256) :
    (iblk m c 3 t : Vec Ideal S256x256 .f32) (ix2 k j) = (m ((c : Thread nD τ).loc main_arg2) : S512x256.Idx → EReal) (ix2 (Sage.lo k) j) := by
  unfold iblk
  refine (read_whole3 (V m c (Pipeline.arrRef spec0 3)) t k j).trans ?_
  exact Host.V_upper_apply m c k j

/-- The block of the lower weights at any point: the lower 256 rows of the weights. -/
theorem lower_apply (c : Dev nD) (t : Fin cfg0.N) (k j : Fin 256) :
    (iblk m c 4 t : Vec Ideal S256x256 .f32) (ix2 k j) = (m ((c : Thread nD τ).loc main_arg2) : S512x256.Idx → EReal) (ix2 (Sage.hi k) j) := by
  unfold iblk
  refine (read_whole4 (V m c (Pipeline.arrRef spec0 4)) t k j).trans ?_
  exact Host.V_lower_apply m c k j

/-- The block of the bias row at any point: the bias. -/
theorem bias_apply (c : Dev nD) (t : Fin cfg0.N) (j : Fin 256) :
    (iblk m c 5 t : Vec Ideal S1x256 .f32) (ix2 (0 : Fin 1) j) = (m ((c : Thread nD τ).loc main_arg3) : S256.Idx → EReal) (ix1 j) := by
  unfold iblk
  refine (read_whole5 (V m c (Pipeline.arrRef spec0 5)) t j).trans ?_
  exact Host.V_bias_apply m c j

/-! ## What a point stores, and the array the write-backs leave -/

/-- The result at row `R`, column `q`: the layer's row function of the whole arrays. -/
theorem result_apply (c : Dev nD) (R : Fin 50000) (q : Fin 256) :
    result m c (ix2 R q)
      = Sage.rowOut (m ((c : Thread nD τ).loc main_arg0) : S50000x256.Idx → EReal)
          (Cert.ReferenceIdeal.Read.val_main_v13 (F := Ideal) (m ((c : Thread nD τ).loc main_arg0)) (m ((c : Thread nD τ).loc main_arg1)))
          (fun r => Cert.ReferenceIdeal.Read.val_main_v17 (F := Ideal) (m ((c : Thread nD τ).loc main_arg1)) (ix1 r))
          (fun kj => (m ((c : Thread nD τ).loc main_arg2) : S512x256.Idx → EReal) (ix2 (Sage.lo (kj 0)) (kj 1)))
          (fun kj => (m ((c : Thread nD τ).loc main_arg2) : S512x256.Idx → EReal) (ix2 (Sage.hi (kj 0)) (kj 1)))
          (fun j => (m ((c : Thread nD τ).loc main_arg3) : S256.Idx → EReal) (ix1 j)) R q := rfl

/-- What point `t` stores at `(p, q)` is the result at row `5000 t + p`, column `q`. -/
theorem point_value (c : Dev nD) (t : Fin cfg0.N) (p : Fin 5000) (q : Fin 256) (R : Fin 50000) (hR : R.val = 5000 * t.val + p.val) :
    k0_pay1 (F := Ideal) (iblk m c 0 t) (iblk m c 1 t) (iblk m c 2 t) (iblk m c 3 t) (iblk m c 4 t) (iblk m c 5 t) (ix2 p q)
      = result m c (ix2 R q) := by
  refine (Block.pay_apply (iblk m c 0 t) (iblk m c 1 t) (iblk m c 2 t) (iblk m c 3 t) (iblk m c 4 t) (iblk m c 5 t) p q).trans ?_
  refine Eq.trans ?_ (result_apply m c R q).symm
  exact Sage.rowOut_congr
    (X := (iblk m c 0 t : Vec Ideal S5000x256 .f32)) (NS := (iblk m c 1 t : Vec Ideal S5000x256 .f32))
    (D := fun p => (iblk m c 2 t : Vec Ideal S5000x1 .f32) (ix2 p (0 : Fin 1)))
    (W1 := (iblk m c 3 t : Vec Ideal S256x256 .f32)) (W2 := (iblk m c 4 t : Vec Ideal S256x256 .f32))
    (B := fun q => (iblk m c 5 t : Vec Ideal S1x256 .f32) (ix2 (0 : Fin 1) q))
    (X' := (m ((c : Thread nD τ).loc main_arg0) : S50000x256.Idx → EReal))
    (NS' := Cert.ReferenceIdeal.Read.val_main_v13 (F := Ideal) (m ((c : Thread nD τ).loc main_arg0)) (m ((c : Thread nD τ).loc main_arg1)))
    (D' := fun r => Cert.ReferenceIdeal.Read.val_main_v17 (F := Ideal) (m ((c : Thread nD τ).loc main_arg1)) (ix1 r))
    (W1' := fun kj => (m ((c : Thread nD τ).loc main_arg2) : S512x256.Idx → EReal) (ix2 (Sage.lo (kj 0)) (kj 1)))
    (W2' := fun kj => (m ((c : Thread nD τ).loc main_arg2) : S512x256.Idx → EReal) (ix2 (Sage.hi (kj 0)) (kj 1)))
    (B' := fun j => (m ((c : Thread nD τ).loc main_arg3) : S256.Idx → EReal) (ix1 j))
    (r := p) (r' := R)
    (fun k => feat_apply m c t p k R hR) (fun k => sums_apply m c t p k R hR) (deg_apply m c t p R hR)
    (fun k j => upper_apply m c t k j) (fun k j => lower_apply m c t k j) (fun j => bias_apply m c t j) q

/-- Entry `(p, q)` of the result window's block at point `t` sits at row `5000 t + p`, column `q` of the result. -/
theorem emb_rows6 (t : Fin cfg0.N) (p : Fin 5000) (q : Fin 256) (R : Fin 50000) (hR : R.val = 5000 * t.val + p.val) :
    (((cfg0.win 6).blk t).view.emb (ix2 p q) : S50000x256.Idx) = ix2 R q := by
  have ht := idx_facts t
  funext a
  apply Fin.ext
  match a with
  | ⟨0, _⟩ => show win0_6.index t (0 : Fin 2) * 5000 + 1 * p.val = R.val; rw [ht.2.2.2.2.2.2.2.2.2.2.2.2.1, hR]; omega
  | ⟨1, _⟩ => show win0_6.index t (1 : Fin 2) * 256 + 1 * q.val = q.val; rw [ht.2.2.2.2.2.2.2.2.2.2.2.2.2]; omega

/-- A stored block `P` whose entry `(p, q)` is an array `G` at row `5000 t + p`, column `q`, written back at point `t`,
    is `G` read through the point's block (stated for arbitrary `P` and `G`: neither is opened). -/
theorem written_eq_read (P : Vec Ideal S5000x256 .f32) (G : S50000x256.Idx → EReal) (t : Fin cfg0.N)
    (h : ∀ (p : Fin 5000) (q : Fin 256) (R : Fin 50000), R.val = 5000 * t.val + p.val → P (ix2 p q) = G (ix2 R q)) :
    (cfg0.win 6).cut (grid0.coords t) P = ((cfg0.win 6).blk t).view.read (Elt Ideal) G := by
  have hlt := point_lt t
  refine funext fun (y : S5000x256.Idx) => ?_
  obtain ⟨p, q, rfl⟩ : ∃ (p : Fin 5000) (q : Fin 256), y = ix2 p q := ⟨y 0, y 1, eq_ix2 y⟩
  have hp : p.val < 5000 := p.isLt
  rw [View.read_apply]
  show P (ix2 p q) = G (((cfg0.win 6).blk t).view.emb (ix2 p q))
  rw [emb_rows6 t p q ⟨5000 * t.val + p.val, by omega⟩ rfl]
  exact h p q _ rfl

/-- WHAT POINT `t` WRITES BACK is its block of the result. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S5000x256) hz, View.ld_unit_zero (S := S5000x1) hz, View.ld_unit_zero (S := S256x256) hz,
    View.ld_unit_zero (S := S1x256) hz]
  exact written_eq_read
    (k0_pay1 (F := Ideal) (iblk m c 0 t) (iblk m c 1 t) (iblk m c 2 t) (iblk m c 3 t) (iblk m c 4 t) (iblk m c 5 t))
    (result m c) t (fun p q R hR => point_value m c t p q R hR)

/-- An index of the result array is in point `t`'s block iff each coordinate is in the block's range on its axis. -/
theorem mem_blk (t : Fin cfg0.N) (i : S50000x256.Idx) :
    i ∈ ((cfg0.win 6).blk t).view.set ↔ ∀ a : Fin 2, win0_6.index t a * S5000x256.size a ≤ (i a).val ∧ (i a).val < win0_6.index t a * S5000x256.size a + S5000x256.size a := by
  show i ∈ ((View.whole main_v22).slice (win0_6.rect t)).set ↔ _
  rw [View.set_slice_whole, Rect.mem_set_unit]
  exact Iff.rfl

/-- Every row is in the block of point `row / 5000`: the ten write-backs cover the result array. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  let t : Fin cfg0.N := ⟨(i 0).val / 5000, by rw [show cfg0.N = 10 from N_0]; omega⟩
  obtain ⟨-, -, -, -, -, -, -, -, -, -, -, -, e0, e1⟩ := idx_facts t
  have e0' : win0_6.index t (0 : Fin 2) = (i 0).val / 5000 := e0
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0']; omega
  | ⟨1, _⟩ => show win0_6.index t (1 : Fin 2) * 256 ≤ (i 1).val ∧ (i 1).val < win0_6.index t (1 : Fin 2) * 256 + 256; rw [e1]; omega

/-- THE RESULT ARRAY after the run is the layer. -/
theorem final (c : Dev nD) : (dats m 0 c).arrAt 6 cfg0.N = result m c :=
  (dats m 0 c).arrAt_eq_of_cover 6 (result m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Sage.Kernel

end
-- ==== Proof.lean ====
/-
  One GraphSAGE layer, computed two ways, is one function of its arguments over the extended reals.

  The arguments are the features `x` of 50000 nodes (256 each), the 800000 edges as pairs of node ids, a weight
  matrix `W` of 512 × 256 and a bias `b` of 256. Both programs first gather each edge's source features and scatter
  them, added, onto the edge's destination (the neighbour sums `ns`), and scatter ones the same way (the degrees
  `deg`); these are the same operations on the same arguments in both, and nothing is proved about them beyond that.
  With `mean r k = ns r k / max (deg r) 1` the layer is
    act r j = max ( Σ_{k < 256} x r k · W k j + Σ_{k < 256} mean r k · W (256 + k) j + b j ) 0
    out r j = act r j / max ( sqrt ( Σ_{j' < 256} act r j' · act r j' ) ) eps .
  The reference multiplies the concatenated vector `(x r ·, mean r ·)` of length 512 by the whole of `W`; the kernel
  multiplies the two halves separately, 5000 rows at a time over a grid of ten points, and adds. The two agree by
  splitting a sum over 512 indices into its halves — a law of any commutative monoid, so of the extended reals with
  their infinities — and the reference's sum of squares starts from a zero that adds nothing. Finiteness of the
  inputs is never used: the precondition is not opened.

  Proof/Spec.lean states the layer (`Sage.layer`) over a row function shared by a block and the whole array;
  Proof/RefValue.lean reads the reference's run as the layer; Proof/Payload.lean reads what a grid point stores as the
  row function of its blocks; Proof/HostPrefix.lean reads the arrays the host prepared for the region;
  Proof/KernelValue.lean reads each block as rows of the arrays, so that a point writes its rows of the layer, and
  the ten write-backs cover the result. The frames are the generated ones, the reference's frame its generated run
  with the result dropped, and the kernel's idealization rewrote no operation, so `preserves` is `True`.
-/
import proofs.«113358_j7284264534191_2_alg».proof.Defs
import proofs.«113358_j7284264534191_2_alg».proof.Proof.Gen.Kernel
import proofs.«113358_j7284264534191_2_alg».proof.Proof.Gen.Kernel.Frame
import proofs.«113358_j7284264534191_2_alg».proof.Proof.Gen.KernelIdeal
import proofs.«113358_j7284264534191_2_alg».proof.Proof.Gen.KernelIdeal.Frame
import proofs.«113358_j7284264534191_2_alg».proof.Proof.Gen.KernelIdeal.Value
import proofs.«113358_j7284264534191_2_alg».proof.Proof.Gen.ReferenceIdeal
import proofs.«113358_j7284264534191_2_alg».proof.Proof.Gen.ReferenceIdeal.Run
import proofs.«113358_j7284264534191_2_alg».proof.Proof.Gen.ReferenceIdeal.Read
import proofs.«113358_j7284264534191_2_alg».proof.Proof.Gen.Pre_finite_inputs
import proofs.«113358_j7284264534191_2_alg».proof.Proof.RefValue
import proofs.«113358_j7284264534191_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The idealized reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end with the layer of those arguments in
    their result arrays: the kernel by its ten blocks of rows (`Sage.Kernel.run`), the reference by its operations
    read one at a time (`Sage.Ref.result_eq`). -/
theorem algebraic : Cert.algebraic_KernelIdeal_ReferenceIdeal := by
  intro m ρ m' ρ' _ hagree
  refine ⟨fun c => Cert.Sage.Kernel.result m c, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.Sage.Ref.result_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
